-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256x256 : Shape := ⟨4, ![32, 64, 256, 256]⟩
abbrev S4x64 : Shape := ⟨2, ![4, 64]⟩
abbrev S4 : Shape := ⟨1, ![4]⟩
abbrev S64x4 : Shape := ⟨2, ![64, 4]⟩
abbrev S64 : Shape := ⟨1, ![64]⟩
abbrev S_ : Shape := ⟨0, ![]⟩

class Facts : Prop where
  bcast_S_S32x64x256x256 : S_.BroadcastsInDim S32x64x256x256 (![] : Fin 0 → Fin S32x64x256x256.rank)
  reducesTo_S32x64x256x256_S_d0_1_2_3 : S32x64x256x256.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x64x256x256 .f32) (main_arg1 : FVec F S4x64 .f32) (main_arg2 : FVec F S4 .f32) (main_arg3 : FVec F S64x4 .f32) (main_arg4 : FVec F S64 .f32) : IVec S_ 1 :=
  let main_v0 : FVec F S32x64x256x256 .f32 := Host.absf main_arg0
  let main_cst : FVec F S_ .f32 := constant S_ .f32 0x7F800000#32
  let main_v1 : FVec F S32x64x256x256 .f32 := broadcastInDim S32x64x256x256 ![] bcast_S_S32x64x256x256 main_cst
  let main_v2 : IVec S32x64x256x256 1 := cmpf .olt main_v0 main_v1
  let main_c : IVec S_ 1 := constantI S_ 1 1#1
  let main_v3 : IVec S_ 1 := (fun x v => Host.reduce IntOp.andi x v reducesTo_S32x64x256x256_S_d0_1_2_3 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4 .f32 := Host.absf main_arg3
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg4 main_v13 main_v16
-- ==== Kernel.lean ====
abbrev S32x64x256x256 : Shape := ⟨4, ![32, 64, 256, 256]⟩
abbrev S4x64 : Shape := ⟨2, ![4, 64]⟩
abbrev S4 : Shape := ⟨1, ![4]⟩
abbrev S64x4 : Shape := ⟨2, ![64, 4]⟩
abbrev S64 : Shape := ⟨1, ![64]⟩
abbrev S1x64x256x256 : Shape := ⟨4, ![1, 64, 256, 256]⟩
abbrev S64x256x256 : Shape := ⟨3, ![64, 256, 256]⟩
abbrev S1x64 : Shape := ⟨2, ![1, 64]⟩
abbrev S1x4 : Shape := ⟨2, ![1, 4]⟩
abbrev S64x1x1 : Shape := ⟨3, ![64, 1, 1]⟩

abbrev nBuf : Space → Nat
  | .hbm => 6
  | .vmem => 7
  | .smem => 0
  | _ => 0

abbrev bufTy : (tb : Table) → Fin (tcTables nBuf tb) → BufTy
  | .hbm, ⟨0, _⟩ => ⟨S32x64x256x256, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S32x64x256x256, .f32⟩
  | .local _ .vmem, ⟨0, _⟩ => ⟨S1x64x256x256, .f32⟩
  | .local _ .vmem, ⟨1, _⟩ => ⟨S1x64x256x256, .f32⟩
  | .local _ .vmem, ⟨2, _⟩ => ⟨S4x64, .f32⟩
  | .local _ .vmem, ⟨3, _⟩ => ⟨S4, .f32⟩
  | .local _ .vmem, ⟨4, _⟩ => ⟨S64x4, .f32⟩
  | .local _ .vmem, ⟨5, _⟩ => ⟨S64, .f32⟩
  | .local _ .vmem, ⟨6, _⟩ => ⟨S1x64x256x256, .f32⟩
  | _, _ => ⟨S32x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

class Facts₀ : Prop where
  inb_S1x64x256x256_S1x64x256x256_0_0_0_0 : ∀ a, (![0, 0, 0, 0] : Fin 4 → Nat) a + S1x64x256x256.size a ≤ S1x64x256x256.size a
  h_S1x64x256x256 : 0 < S1x64x256x256.numel
  shapeCasts_S1x64x256x256_S64x256x256 : S1x64x256x256.ShapeCasts S64x256x256
  reduces_S64x256x256_S64 : S64x256x256.Reduces [1, 2] S64
  shapeCasts_S64_S1x64 : S64.ShapeCasts S1x64
  inb_S4x64_S4x64_0_0 : ∀ a, (![0, 0] : Fin 2 → Nat) a + S4x64.size a ≤ S4x64.size a
  h_S4x64 : 0 < S4x64.numel
  inb_S4_S4_0 : ∀ a, (![0] : Fin 1 → Nat) a + S4.size a ≤ S4.size a
  h_S4 : 0 < S4.numel
  inb_S64x4_S64x4_0_0 : ∀ a, (![0, 0] : Fin 2 → Nat) a + S64x4.size a ≤ S64x4.size a
  h_S64x4 : 0 < S64x4.numel
  inb_S64_S64_0 : ∀ a, (![0] : Fin 1 → Nat) a + S64.size a ≤ S64.size a
  h_S64 : 0 < S64.numel
  transposes_S4x64_p1_0_S64x4 : S4x64.Transposes [1, 0] S64x4
  shapeCasts_S4_S1x4 : S4.ShapeCasts S1x4
  transposes_S64x4_p1_0_S4x64 : S64x4.Transposes [1, 0] S4x64
  shapeCasts_S1x64_S64 : S1x64.ShapeCasts S64
  shapeCasts_S64_S64x1x1 : S64.ShapeCasts S64x1x1
  broadcasts_S64x1x1_S64x256x256 : S64x1x1.Broadcasts S64x256x256
  shapeCasts_S64x256x256_S1x64x256x256 : S64x256x256.ShapeCasts S1x64x256x256
  dot_S1x64_S64x4_S1x4_1_0_0_1_n_n_wf : DotDims.WF S1x64 S64x4 S1x4 [1] [0] [0] [1] [] []
  dot_S1x4_S4x64_S1x64_1_0_0_1_n_n_wf : DotDims.WF S1x4 S4x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x256.size a ≤ S32x64x256x256.size a
  hwx0_0 : ∀ i : grid0.Coords, EltTy.bits .f32 = 32 ∨ (Rect.block (s := S32x64x256x256) S1x64x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64x256x256.size a ≤ S32x64x256x256.size a
  hwx0_5 : ∀ i : grid0.Coords, EltTy.bits .f32 = 32 ∨ (Rect.block (s := S32x64x256x256) S1x64x256x256.size (cc0_transform_5 i) (hinb0_5 i)).WholeWords (EltTy.packing .f32)

variable [Facts₀]

def dot_S1x64_S64x4_S1x4_1_0_0_1_n_n : DotDims S1x64 S64x4 S1x4 where
  lhsContracting := [1]
  rhsContracting := [0]
  lhsNonContracting := [0]
  rhsNonContracting := [1]
  lhsBatch := []
  rhsBatch := []
  wf := dot_S1x64_S64x4_S1x4_1_0_0_1_n_n_wf
def dot_S1x4_S4x64_S1x64_1_0_0_1_n_n : DotDims S1x4 S4x64 S1x64 where
  lhsContracting := [1]
  rhsContracting := [0]
  lhsNonContracting := [0]
  rhsNonContracting := [1]
  lhsBatch := []
  rhsBatch := []
  wf := dot_S1x4_S4x64_S1x64_1_0_0_1_n_n_wf

abbrev win0_0 : Pipeline.Window sig grid0 :=
  Pipeline.Window.ofSpec (Memref.whole main_arg0) S1x64x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x256x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x64x256x256 : Shape := ⟨4, ![32, 64, 256, 256]⟩
abbrev S4x64 : Shape := ⟨2, ![4, 64]⟩
abbrev S4 : Shape := ⟨1, ![4]⟩
abbrev S64x4 : Shape := ⟨2, ![64, 4]⟩
abbrev S64 : Shape := ⟨1, ![64]⟩
abbrev S_ : Shape := ⟨0, ![]⟩
abbrev S32x64 : Shape := ⟨2, ![32, 64]⟩
abbrev S32x4 : Shape := ⟨2, ![32, 4]⟩
abbrev S1x4 : Shape := ⟨2, ![1, 4]⟩
abbrev S1x64 : Shape := ⟨2, ![1, 64]⟩
abbrev S32x64x1x1 : Shape := ⟨4, ![32, 64, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S32x64x256x256, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S_, .f32⟩
  | .hbm, ⟨6, _⟩ => ⟨S32x64, .f32⟩
  | .hbm, ⟨7, _⟩ => ⟨S_, .f32⟩
  | .hbm, ⟨8, _⟩ => ⟨S32x64, .f32⟩
  | .hbm, ⟨9, _⟩ => ⟨S32x64, .f32⟩
  | .hbm, ⟨10, _⟩ => ⟨S32x4, .f32⟩
  | .hbm, ⟨11, _⟩ => ⟨S1x4, .f32⟩
  | .hbm, ⟨12, _⟩ => ⟨S32x4, .f32⟩
  | .hbm, ⟨13, _⟩ => ⟨S32x4, .f32⟩
  | .hbm, ⟨14, _⟩ => ⟨S_, .f32⟩
  | .hbm, ⟨15, _⟩ => ⟨S32x4, .f32⟩
  | .hbm, ⟨16, _⟩ => ⟨S32x4, .f32⟩
  | .hbm, ⟨17, _⟩ => ⟨S32x64, .f32⟩
  | .hbm, ⟨18, _⟩ => ⟨S1x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .f32⟩
  | .hbm, ⟨24, _⟩ => ⟨S32x64, .f32⟩
  | .hbm, ⟨25, _⟩ => ⟨S32x64, .f32⟩
  | .hbm, ⟨26, _⟩ => ⟨S_, .f32⟩
  | .hbm, ⟨27, _⟩ => ⟨S32x64, .f32⟩
  | .hbm, ⟨28, _⟩ => ⟨S32x64, .f32⟩
  | .hbm, ⟨29, _⟩ => ⟨S32x64x1x1, .f32⟩
  | .hbm, ⟨30, _⟩ => ⟨S32x64x256x256, .f32⟩
  | .hbm, ⟨31, _⟩ => ⟨S32x64x256x256, .f32⟩
  | _, _ => ⟨S32x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_cst : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S32x64x256x256_S32x64_d2_3 : S32x64x256x256.ReducesTo [2, 3] S32x64
  h_S_ : 0 < S_.numel
  bcast_S_S32x64 : S_.BroadcastsInDim S32x64 (![] : Fin 0 → Fin S32x64.rank)
  bcast_S4_S1x4_1 : S4.BroadcastsInDim S1x4 (![1] : Fin 1 → Fin S1x4.rank)
  bcast_S1x4_S32x4_0_1 : S1x4.BroadcastsInDim S32x4 (![0, 1] : Fin 2 → Fin S32x4.rank)
  bcast_S_S32x4 : S_.BroadcastsInDim S32x4 (![] : Fin 0 → Fin S32x4.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  bcast_S32x64_S32x64x1x1_0_1 : S32x64.BroadcastsInDim S32x64x1x1 (![0, 1] : Fin 2 → Fin S32x64x1x1.rank)
  bcast_S32x64x1x1_S32x64x256x256_0_1_2_3 : S32x64x1x1.BroadcastsInDim S32x64x256x256 (![0, 1, 2, 3] : Fin 4 → Fin S32x64x256x256.rank)
  dot_S32x64_S4x64_S32x4_1_1_0_0_n_n_wf : DotDims.WF S32x64 S4x64 S32x4 [1] [1] [0] [0] [] []
  dot_S32x4_S64x4_S32x64_1_1_0_0_n_n_wf : DotDims.WF S32x4 S64x4 S32x64 [1] [1] [0] [0] [] []

variable [Facts₀]

def dot_S32x64_S4x64_S32x4_1_1_0_0_n_n : DotDims S32x64 S4x64 S32x4 where
  lhsContracting := [1]
  rhsContracting := [1]
  lhsNonContracting := [0]
  rhsNonContracting := [0]
  lhsBatch := []
  rhsBatch := []
  wf := dot_S32x64_S4x64_S32x4_1_1_0_0_n_n_wf
def dot_S32x4_S64x4_S32x64_1_1_0_0_n_n : DotDims S32x4 S64x4 S32x64 where
  lhsContracting := [1]
  rhsContracting := [1]
  lhsNonContracting := [0]
  rhsNonContracting := [0]
  lhsBatch := []
  rhsBatch := []
  wf := dot_S32x4_S64x4_S32x64_1_1_0_0_n_n_wf

class Facts : Prop extends Facts₀ where

variable [Facts]
-- ==== Proof.Excite.lean ====
/-
  The mathematics both programs compute, stated over the argument arrays alone.

  For a feature map `x` of shape [32, 64, 256, 256], the plane sum `planeSum x b q` adds the 256 × 256 entries of
  plane `(b, q)`.  The channel scale of batch `b` is a function of the 64 plane sums of that batch only:

      pooled q  = planeSum x b q / 65536
      hidden k  = max (∑ q, pooled q · w_down[k, q] + b_down[k]) 0            (4 values)
      scale c    = logistic (∑ k, hidden k · w_up[c, k] + b_up[c])             (64 values)

  and the result is `x[b, c, h, w] · scale c`.  Nothing here needs the entries to be finite: both programs apply the
  same operations of the extended reals in the same order, and only the index sets of the sums are arranged differently
  (a sum over a plane of one batch's block against a sum over the same plane of the whole array).
-/
import Idealize.ShloMosaic.PureOps.Ideal.Laws
import Idealize.ShloMosaic.Lib.ValueIdx

noncomputable section

namespace Cert.Excite

open Idealize.ShloMosaic Idealize.ShloMosaic.ValueIdx

/-- The feature map's shape, one batch's slab, and the shapes of the four small operands. -/
abbrev Arr : Shape := ⟨4, ![32, 64, 256, 256]⟩
abbrev Slab : Shape := ⟨3, ![64, 256, 256]⟩
abbrev Wd : Shape := ⟨2, ![4, 64]⟩
abbrev Bd : Shape := ⟨1, ![4]⟩
abbrev Wu : Shape := ⟨2, ![64, 4]⟩
abbrev Bu : Shape := ⟨1, ![64]⟩

/-- The sum of the entries of plane `(b, q)`: every index of the array whose first two coordinates are `b` and `q`. -/
def planeSum (x : Arr.Idx → EReal) (b : Fin 32) (q : Fin 64) : EReal :=
  ∑ i ∈ Finset.univ.filter (fun i : Arr.Idx => (i 0).val = b.val ∧ (i 1).val = q.val), x i

/-- The scale of channel `c`, from the 64 plane sums `p` of one batch: mean, 64 → 4 affine map, clamp at zero,
    4 → 64 affine map, logistic.  The two literals are 65536.0 and 0.0 as both programs spell them. -/
def chanScale (p : Fin 64 → EReal) (wd : Wd.Idx → EReal) (bd : Bd.Idx → EReal) (wu : Wu.Idx → EReal) (bu : Bu.Idx → EReal)
    (c : Fin 64) : EReal :=
  Ideal.logistic
    ((∑ k : Fin 4,
        max ((∑ q : Fin 64, Ideal.div (p q) (Ideal.ofBits .f32 0x47800000#32) * wd (ix2 k q)) + bd (ix1 k))
            (Ideal.ofBits .f32 0x00000000#32)
          * wu (ix2 c k))
      + bu (ix1 c))

/-- The whole result: each entry times the scale of its channel, computed from its own batch's plane sums. -/
def rescaled (x : Arr.Idx → EReal) (wd : Wd.Idx → EReal) (bd : Bd.Idx → EReal) (wu : Wu.Idx → EReal) (bu : Bu.Idx → EReal) :
    Arr.Idx → EReal :=
  fun i => x i * chanScale (fun q => planeSum x (i 0) q) wd bd wu bu (i 1)

/-- Summing one batch's slab over its last two axes, at channel `q`, is the plane sum: the slab's indices with first
    coordinate `q` correspond one to one to the array's indices with first coordinates `(b, q)`. -/
theorem reduce_slab (x : Arr.Idx → EReal) (b : Fin 32) (q : Fin 64) (h : Slab.Reduces [1, 2] Bu) :
    Ideal.reduceAdd h (fun i : Slab.Idx => x (ix4 b (i 0) (i 1) (i 2))) (ix1 q) = planeSum x b q := by
  unfold Ideal.reduceAdd planeSum
  have k0 : ∀ i : Slab.Idx, (h.drop i 0 : ℕ) = i 0 := fun i => h.drop_apply_val_of_eq i 0 0
  refine Finset.sum_nbij' (fun i : Slab.Idx => (ix4 b (i 0) (i 1) (i 2) : Arr.Idx))
    (fun i : Arr.Idx => (ix3 (i 1) (i 2) (i 3) : Slab.Idx)) ?_ ?_ ?_ ?_ ?_
  · intro i hi
    have hj := (Finset.mem_filter.1 hi).2
    have : (h.drop i 0 : ℕ) = q.val := congrArg (fun j : Bu.Idx => (j 0).val) hj
    exact Finset.mem_filter.2 ⟨Finset.mem_univ _, rfl, (k0 i).symm.trans this⟩
  · intro i hi
    obtain ⟨-, -, h1⟩ := Finset.mem_filter.1 hi
    refine Finset.mem_filter.2 ⟨Finset.mem_univ _, ?_⟩
    funext a
    match a with
    | ⟨0, _⟩ => exact Fin.ext ((k0 _).trans h1)
  · intro i _
    funext a
    match a with
    | ⟨0, _⟩ => rfl
    | ⟨1, _⟩ => rfl
    | ⟨2, _⟩ => rfl
  · intro i hi
    obtain ⟨-, h0, -⟩ := Finset.mem_filter.1 hi
    funext a
    match a with
    | ⟨0, _⟩ => exact Fin.ext h0.symm
    | ⟨1, _⟩ => rfl
    | ⟨2, _⟩ => rfl
    | ⟨3, _⟩ => rfl
  · intro i _
    rfl

/-- Summing the whole array over its last two axes, at `(b, q)`, from the zero the host starts at, is the plane sum. -/
theorem reduce_arr (x : Arr.Idx → EReal) (b : Fin 32) (q : Fin 64) (h : Arr.ReducesTo [2, 3] ⟨2, ![32, 64]⟩) :
    Ideal.hostReduceAdd h x (Ideal.ofBits .f32 0x00000000#32) (ix2 b q) = planeSum x b q := by
  unfold Ideal.hostReduceAdd planeSum
  rw [Ideal.ofBits_zero_f32, zero_add]
  have k0 : ∀ i : Arr.Idx, (h.drop i 0 : ℕ) = i 0 := fun i => h.drop_apply_val_of_eq i 0 0
  have k1 : ∀ i : Arr.Idx, (h.drop i 1 : ℕ) = i 1 := fun i => h.drop_apply_val_of_eq i 1 1
  refine Finset.sum_congr (Finset.filter_congr fun i _ => ⟨fun hj => ?_, fun hj => ?_⟩) fun _ _ => rfl
  · exact ⟨(k0 i).symm.trans (congrArg (fun j : (⟨2, ![32, 64]⟩ : Shape).Idx => (j 0).val) hj),
      (k1 i).symm.trans (congrArg (fun j : (⟨2, ![32, 64]⟩ : Shape).Idx => (j 1).val) hj)⟩
  · funext a
    match a with
    | ⟨0, _⟩ => exact Fin.ext ((k0 i).trans hj.1)
    | ⟨1, _⟩ => exact Fin.ext ((k1 i).trans hj.2)

end Cert.Excite

end
-- ==== Proof.KernelBody.lean ====
/-
  The kernel's body, read index by index.

  At one grid point the body holds one batch's slab `x0` (shape [1, 64, 256, 256]) and the four small operands whole.
  Its one store is, at `(0, c, h, w)`,

      x0[0, c, h, w] · scale c,

  where `scale` is `Excite.chanScale` of the slab's 64 sums over its last two axes.  The body's arithmetic is cut here into
  three stages (the means, the hidden layer, the scale), each read at an index by pushing the index through the layout
  operations (a cast adds or drops unit axes, a transpose swaps coordinates, a broadcast repeats a column) and by reading
  a matrix product into a zero accumulator as a sum over the contracted coordinate.
-/
import proofs.«169785_j49701361549823_2_alg».proof.Proof.Gen.KernelIdeal.Skeleton
import proofs.«169785_j49701361549823_2_alg».proof.Proof.Excite
import Idealize.ShloMosaic.Lib.Pipeline.Value
import Idealize.ShloMosaic.Lib.ValueLayout

noncomputable section

namespace Cert.KernelIdeal.Body

open Cert.KernelIdeal Cert.KernelIdeal.Gen Cert.Excite
open Idealize.ShloMosaic Idealize.ShloMosaic.ValueIdx

/-! ## Two layout operations on a column -/

/-- A vector of length `a` cast to `[a, 1, 1]` reads, at `(i, 0, 0)`, the operand at `i`. -/
theorem cast_column {α : Type} {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    rw [hu, hv]; omega)

/-- An `[a, 1, 1]` column broadcast to `[a, b, c]` reads, at `(i, p, q)`, the operand at `(i, 0, 0)`. -/
theorem spread_column {α : Type} {a b c : ℕ} (x : (⟨3, ![a, 1, 1]⟩ : Shape).Idx → α)
    (h : (⟨3, ![a, 1, 1]⟩ : Shape).Broadcasts ⟨3, ![a, b, c]⟩) (i : Fin a) (p : Fin b) (q : Fin c) :
    broadcastTo ⟨3, ![a, b, c]⟩ x h (ix3 i p q) = x (ix3 i (0 : Fin 1) (0 : Fin 1)) := by
  refine broadcastTo_apply x h (ix3 i p q) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-! ## The two matrix products, each a row against a matrix -/

theorem down_lhs0 (j : S1x4.Idx) (q : dot_S1x64_S64x4_S1x4_1_0_0_1_n_n.contr.Idx) :
    (dot_S1x64_S64x4_S1x4_1_0_0_1_n_n.lhsIdx j q 0).val = (j 0).val := by
  unfold DotDims.lhsIdx
  rw [dif_neg (show ¬(0 : Fin S1x64.rank) ∈ dot_S1x64_S64x4_S1x4_1_0_0_1_n_n.lhsBatch by decide),
    dif_pos (show (0 : Fin S1x64.rank) ∈ dot_S1x64_S64x4_S1x4_1_0_0_1_n_n.lhsNonContracting by decide)]
  rfl
theorem down_lhs1 (j : S1x4.Idx) (q : dot_S1x64_S64x4_S1x4_1_0_0_1_n_n.contr.Idx) :
    (dot_S1x64_S64x4_S1x4_1_0_0_1_n_n.lhsIdx j q 1).val = (q ⟨0, by decide⟩).val :=
  dot_S1x64_S64x4_S1x4_1_0_0_1_n_n.lhsIdx_val_of_single rfl j q
theorem down_rhs0 (j : S1x4.Idx) (q : dot_S1x64_S64x4_S1x4_1_0_0_1_n_n.contr.Idx) :
    (dot_S1x64_S64x4_S1x4_1_0_0_1_n_n.rhsIdx j q 0).val = (q ⟨0, by decide⟩).val :=
  dot_S1x64_S64x4_S1x4_1_0_0_1_n_n.rhsIdx_val_of_single rfl j q
theorem down_rhs1 (j : S1x4.Idx) (q : dot_S1x64_S64x4_S1x4_1_0_0_1_n_n.contr.Idx) :
    (dot_S1x64_S64x4_S1x4_1_0_0_1_n_n.rhsIdx j q 1).val = (j 1).val := by
  unfold DotDims.rhsIdx
  rw [dif_neg (show ¬(1 : Fin S64x4.rank) ∈ dot_S1x64_S64x4_S1x4_1_0_0_1_n_n.rhsBatch by decide),
    dif_pos (show (1 : Fin S64x4.rank) ∈ dot_S1x64_S64x4_S1x4_1_0_0_1_n_n.rhsNonContracting by decide)]
  rfl

/-- The one row of `l` against column `k` of `r`, into a zero accumulator: the sum over the 64 contracted coordinates. -/
theorem down_apply (l : FVec Ideal S1x64 .f32) (r : FVec Ideal S64x4 .f32) (k : Fin 4) :
    matmul dot_S1x64_S64x4_S1x4_1_0_0_1_n_n none l r (constant S1x4 .f32 0x00000000#32) (ix2 (0 : Fin 1) k)
      = ∑ q : Fin 64, l (ix2 (0 : Fin 1) q) * r (ix2 q k) := by
  simp only [matmul]
  rw [Ideal.matmul_constant_zero_apply,
    ← Equiv.sum_comp (contrEquiv1 dot_S1x64_S64x4_S1x4_1_0_0_1_n_n 64 rfl rfl).symm]
  refine Finset.sum_congr rfl fun q _ => ?_
  have hq := contrEquiv1_symm_val dot_S1x64_S64x4_S1x4_1_0_0_1_n_n 64 rfl rfl q
  have el : dot_S1x64_S64x4_S1x4_1_0_0_1_n_n.lhsIdx (ix2 (0 : Fin 1) k)
      ((contrEquiv1 dot_S1x64_S64x4_S1x4_1_0_0_1_n_n 64 rfl rfl).symm q) = ix2 (0 : Fin 1) q :=
    funext fun a => Fin.ext (by
      match a with
      | ⟨0, _⟩ => exact down_lhs0 _ _
      | ⟨1, _⟩ => exact (down_lhs1 _ _).trans hq)
  have er : dot_S1x64_S64x4_S1x4_1_0_0_1_n_n.rhsIdx (ix2 (0 : Fin 1) k)
      ((contrEquiv1 dot_S1x64_S64x4_S1x4_1_0_0_1_n_n 64 rfl rfl).symm q) = ix2 q k :=
    funext fun a => Fin.ext (by
      match a with
      | ⟨0, _⟩ => exact (down_rhs0 _ _).trans hq
      | ⟨1, _⟩ => exact down_rhs1 _ _)
  rw [el, er]

theorem up_lhs0 (j : S1x64.Idx) (q : dot_S1x4_S4x64_S1x64_1_0_0_1_n_n.contr.Idx) :
    (dot_S1x4_S4x64_S1x64_1_0_0_1_n_n.lhsIdx j q 0).val = (j 0).val := by
  unfold DotDims.lhsIdx
  rw [dif_neg (show ¬(0 : Fin S1x4.rank) ∈ dot_S1x4_S4x64_S1x64_1_0_0_1_n_n.lhsBatch by decide),
    dif_pos (show (0 : Fin S1x4.rank) ∈ dot_S1x4_S4x64_S1x64_1_0_0_1_n_n.lhsNonContracting by decide)]
  rfl
theorem up_lhs1 (j : S1x64.Idx) (q : dot_S1x4_S4x64_S1x64_1_0_0_1_n_n.contr.Idx) :
    (dot_S1x4_S4x64_S1x64_1_0_0_1_n_n.lhsIdx j q 1).val = (q ⟨0, by decide⟩).val :=
  dot_S1x4_S4x64_S1x64_1_0_0_1_n_n.lhsIdx_val_of_single rfl j q
theorem up_rhs0 (j : S1x64.Idx) (q : dot_S1x4_S4x64_S1x64_1_0_0_1_n_n.contr.Idx) :
    (dot_S1x4_S4x64_S1x64_1_0_0_1_n_n.rhsIdx j q 0).val = (q ⟨0, by decide⟩).val :=
  dot_S1x4_S4x64_S1x64_1_0_0_1_n_n.rhsIdx_val_of_single rfl j q
theorem up_rhs1 (j : S1x64.Idx) (q : dot_S1x4_S4x64_S1x64_1_0_0_1_n_n.contr.Idx) :
    (dot_S1x4_S4x64_S1x64_1_0_0_1_n_n.rhsIdx j q 1).val = (j 1).val := by
  unfold DotDims.rhsIdx
  rw [dif_neg (show ¬(1 : Fin S4x64.rank) ∈ dot_S1x4_S4x64_S1x64_1_0_0_1_n_n.rhsBatch by decide),
    dif_pos (show (1 : Fin S4x64.rank) ∈ dot_S1x4_S4x64_S1x64_1_0_0_1_n_n.rhsNonContracting by decide)]
  rfl

/-- The one row of `l` against column `c` of `r`, into a zero accumulator: the sum over the 4 contracted coordinates. -/
theorem up_apply (l : FVec Ideal S1x4 .f32) (r : FVec Ideal S4x64 .f32) (c : Fin 64) :
    matmul dot_S1x4_S4x64_S1x64_1_0_0_1_n_n none l r (constant S1x64 .f32 0x00000000#32) (ix2 (0 : Fin 1) c)
      = ∑ k : Fin 4, l (ix2 (0 : Fin 1) k) * r (ix2 k c) := by
  simp only [matmul]
  rw [Ideal.matmul_constant_zero_apply,
    ← Equiv.sum_comp (contrEquiv1 dot_S1x4_S4x64_S1x64_1_0_0_1_n_n 4 rfl rfl).symm]
  refine Finset.sum_congr rfl fun k _ => ?_
  have hk := contrEquiv1_symm_val dot_S1x4_S4x64_S1x64_1_0_0_1_n_n 4 rfl rfl k
  have el : dot_S1x4_S4x64_S1x64_1_0_0_1_n_n.lhsIdx (ix2 (0 : Fin 1) c)
      ((contrEquiv1 dot_S1x4_S4x64_S1x64_1_0_0_1_n_n 4 rfl rfl).symm k) = ix2 (0 : Fin 1) k :=
    funext fun a => Fin.ext (by
      match a with
      | ⟨0, _⟩ => exact up_lhs0 _ _
      | ⟨1, _⟩ => exact (up_lhs1 _ _).trans hk)
  have er : dot_S1x4_S4x64_S1x64_1_0_0_1_n_n.rhsIdx (ix2 (0 : Fin 1) c)
      ((contrEquiv1 dot_S1x4_S4x64_S1x64_1_0_0_1_n_n 4 rfl rfl).symm k) = ix2 k c :=
    funext fun a => Fin.ext (by
      match a with
      | ⟨0, _⟩ => exact (up_rhs0 _ _).trans hk
      | ⟨1, _⟩ => exact up_rhs1 _ _)
  rw [el, er]

/-! ## The body's three stages -/

variable (x0 : FVec Ideal S1x64x256x256 .f32) (x1 : FVec Ideal S4x64 .f32) (x2 : FVec Ideal S4 .f32)
  (x3 : FVec Ideal S64x4 .f32) (x4 : FVec Ideal S64 .f32)

/-- The logistic function applied entry by entry. -/
theorem logistic_apply {s : Shape} (a : FVec Ideal s .f32) (i : s.Idx) : logistic a i = Ideal.logistic (a i) := rfl

/-- The slab without its unit axis. -/
def slab : FVec Ideal S64x256x256 .f32 := shapeCast S64x256x256 x0 shapeCasts_S1x64x256x256_S64x256x256

/-- The 64 plane means of the slab. -/
def means : FVec Ideal S64 .f32 :=
  divf (multiReduction .add [1, 2] S64 (slab x0) 0x00000000#32 reduces_S64x256x256_S64 (.inl rfl) rfl)
    (broadcast S64 (Scalar.ofBits .f32 0x47800000#32))

/-- The hidden layer, from the means `p`. -/
def hidden (p : FVec Ideal S64 .f32) : FVec Ideal S1x4 .f32 :=
  maximumf
    (addf (matmul dot_S1x64_S64x4_S1x4_1_0_0_1_n_n none (shapeCast S1x64 p shapeCasts_S64_S1x64)
        (transpose S64x4 [1, 0] x1 transposes_S4x64_p1_0_S64x4) (constant S1x4 .f32 0x00000000#32))
      (shapeCast S1x4 x2 shapeCasts_S4_S1x4))
    (broadcast S1x4 (Scalar.ofBits .f32 0x00000000#32))

/-- The channel scales, from the hidden layer `g`. -/
def excite (g : FVec Ideal S1x4 .f32) : FVec Ideal S1x64 .f32 :=
  logistic
    (addf (matmul dot_S1x4_S4x64_S1x64_1_0_0_1_n_n none g
        (transpose S4x64 [1, 0] x3 transposes_S64x4_p1_0_S4x64) (constant S1x64 .f32 0x00000000#32))
      (shapeCast S1x64 x4 shapeCasts_S64_S1x64))

/-- The body's one stored value is the slab times the channel scales spread over each plane. -/
theorem pay_stages :
    k0_pay1 x0 x1 x2 x3 x4
      = shapeCast S1x64x256x256
          (mulf (slab x0)
            (broadcastTo S64x256x256
              (shapeCast S64x1x1 (shapeCast S64 (excite x3 x4 (hidden x1 x2 (means x0))) shapeCasts_S1x64_S64)
                shapeCasts_S64_S64x1x1)
              broadcasts_S64x1x1_S64x256x256))
          shapeCasts_S64x256x256_S1x64x256x256 := rfl

theorem slab_apply (c : Fin 64) (h w : Fin 256) : slab x0 (ix3 c h w) = x0 (ix4 (0 : Fin 1) c h w) :=
  shapeCast_1abc_abc_apply x0 _ c h w

/-- The slab as a function of coordinates. -/
theorem slab_eq : slab x0 = fun i : S64x256x256.Idx => x0 (ix4 (0 : Fin 1) (i 0) (i 1) (i 2)) := by
  funext i
  obtain ⟨c, h, w, rfl⟩ : ∃ (c : Fin 64) (h w : Fin 256), i = ix3 c h w := ⟨i 0, i 1, i 2, eq_ix3 i⟩
  exact slab_apply x0 c h w

/-- The mean of plane `q`: the slab summed over its last two axes at `q`, over 65536. -/
theorem means_apply (q : Fin 64) :
    means x0 (ix1 q)
      = Ideal.div (Ideal.reduceAdd reduces_S64x256x256_S64 (fun i : S64x256x256.Idx => x0 (ix4 (0 : Fin 1) (i 0) (i 1) (i 2))) (ix1 q))
          (Ideal.ofBits .f32 0x47800000#32) := by
  rw [← slab_eq]
  rfl

/-- The hidden layer at `k`. -/
theorem hidden_apply (p : FVec Ideal S64 .f32) (k : Fin 4) :
    hidden x1 x2 p (ix2 (0 : Fin 1) k)
      = max ((∑ q : Fin 64, p (ix1 q) * x1 (ix2 k q)) + x2 (ix1 k)) (Ideal.ofBits .f32 0x00000000#32) := by
  have ht : ∀ q : Fin 64, transpose S64x4 [1, 0] x1 transposes_S4x64_p1_0_S64x4 (ix2 q k) = x1 (ix2 k q) :=
    fun q => transpose_ix2_apply x1 _ q k
  unfold hidden
  rw [maximumf_apply, addf_apply, down_apply, shapeCast_a_1a_apply]
  simp only [shapeCast_a_1a_apply, ht]
  rfl

/-- The scale at `c`. -/
theorem excite_apply (g : FVec Ideal S1x4 .f32) (c : Fin 64) :
    excite x3 x4 g (ix2 (0 : Fin 1) c)
      = Ideal.logistic ((∑ k : Fin 4, g (ix2 (0 : Fin 1) k) * x3 (ix2 c k)) + x4 (ix1 c)) := by
  have ht : ∀ k : Fin 4, transpose S4x64 [1, 0] x3 transposes_S64x4_p1_0_S4x64 (ix2 k c) = x3 (ix2 c k) :=
    fun k => transpose_ix2_apply x3 _ k c
  unfold excite
  rw [logistic_apply, addf_apply, up_apply, shapeCast_a_1a_apply]
  simp only [ht]

/-- THE BODY AT AN INDEX: the slab's entry times the scale of its channel. -/
theorem pay_apply (u : Fin 1) (c : Fin 64) (h w : Fin 256) :
    k0_pay1 x0 x1 x2 x3 x4 (ix4 u c h w)
      = x0 (ix4 (0 : Fin 1) c h w)
        * chanScale (fun q => Ideal.reduceAdd reduces_S64x256x256_S64
              (fun i : S64x256x256.Idx => x0 (ix4 (0 : Fin 1) (i 0) (i 1) (i 2))) (ix1 q))
            x1 x2 x3 x4 c := by
  rw [pay_stages, shapeCast_abc_1abc_apply, mulf_apply, slab_apply, spread_column, cast_column, shapeCast_1a_a_apply,
    excite_apply]
  simp only [hidden_apply, means_apply]
  rfl

end Cert.KernelIdeal.Body

end
-- ==== Proof.KernelArray.lean ====
/-
  From the kernel's blocks to its result array.

  The grid has one point per batch.  Point `t` stages batch `t`'s slab of the feature map and the four small
  operands whole, and writes back batch `t`'s slab of the result.  By `Body.pay_apply` what it writes at
  `(0, c, h, w)` is the slab's entry times the scale computed from the slab's own plane sums, and the slab's plane
  `q` is plane `(t, q)` of the array (`Excite.reduce_slab`): so the block is block `t` of `Excite.rescaled`.
  The 32 blocks cover the array (entry `i` lies in the block of point `i 0`), hence the array ends as
  `Excite.rescaled` of the arguments.
-/
import proofs.«169785_j49701361549823_2_alg».proof.Proof.Gen.KernelIdeal.Value
import proofs.«169785_j49701361549823_2_alg».proof.Proof.KernelBody

noncomputable section

namespace Cert.KernelIdeal.ArrayValue

open Cert.KernelIdeal Cert.KernelIdeal.Gen Cert.KernelIdeal.Value Cert.KernelIdeal.Body Cert.Excite
open Idealize.ShloMosaic Idealize.ShloMosaic.TcCoe Idealize.SL.Sem Idealize.ShloMosaic.ValueIdx
open Idealize.ShloMosaic.Pipeline (Dat)

/-! ## One slab computes its batch's entries of the rescaled array -/

/-- If the slab `x0` is batch `b` of `X` and the small operands are the arrays themselves, the body's value at a block
    index `y` is `rescaled` at the array index `(b, y 1, y 2, y 3)`. -/
theorem pay_eq_rescaled (X : Arr.Idx → EReal) (W1 : Wd.Idx → EReal) (W2 : Bd.Idx → EReal) (W3 : Wu.Idx → EReal)
    (W4 : Bu.Idx → EReal) (b : Fin 32)
    (x0 : FVec Ideal S1x64x256x256 .f32) (x1 : FVec Ideal S4x64 .f32) (x2 : FVec Ideal S4 .f32)
    (x3 : FVec Ideal S64x4 .f32) (x4 : FVec Ideal S64 .f32)
    (hx0 : ∀ (c : Fin 64) (h w : Fin 256), x0 (ix4 (0 : Fin 1) c h w) = X (ix4 b c h w))
    (hx1 : x1 = W1) (hx2 : x2 = W2) (hx3 : x3 = W3) (hx4 : x4 = W4)
    (y : S1x64x256x256.Idx) (i : Arr.Idx)
    (h0 : (i 0).val = b.val) (h1 : (i 1).val = (y 1).val) (h2 : (i 2).val = (y 2).val) (h3 : (i 3).val = (y 3).val) :
    k0_pay1 (F := Ideal) x0 x1 x2 x3 x4 y = rescaled X W1 W2 W3 W4 i := by
  subst hx1 hx2 hx3 hx4
  obtain ⟨u, c, h, w, rfl⟩ : ∃ (u : Fin 1) (c : Fin 64) (h w : Fin 256), y = ix4 u c h w :=
    ⟨y 0, y 1, y 2, y 3, eq_ix4 y⟩
  obtain rfl : i = ix4 b c h w := funext fun a => Fin.ext (by
    match a with
    | ⟨0, _⟩ => exact h0
    | ⟨1, _⟩ => exact h1
    | ⟨2, _⟩ => exact h2
    | ⟨3, _⟩ => exact h3)
  have hs : (fun j : S64x256x256.Idx => x0 (ix4 (0 : Fin 1) (j 0) (j 1) (j 2)))
      = fun j : Slab.Idx => X (ix4 b (j 0) (j 1) (j 2)) := funext fun j => hx0 _ _ _
  rw [pay_apply, hx0, hs]
  simp only [reduce_slab]
  rfl

/-! ## The blocks -/

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 32 grid points: the feature map's and the result's windows are at block
    `(t, 0, 0, 0)`, the small operands' at block zero. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_5.index t (0 : Fin 4) = t.val ∧ win0_5.index t (1 : Fin 4) = 0 ∧ win0_5.index t (2 : Fin 4) = 0
    ∧ win0_5.index t (3 : Fin 4) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0 :=
  (by decide +kernel : ∀ t : Fin grid0.N, _)

/-- The small operands' blocks are the arrays whole. -/
theorem iblk_wd (c : Dev nD) (t : Fin cfg0.N) : (iblk m c 1 t : FVec Ideal S4x64 .f32) = V m c main_arg1 := by
  obtain ⟨-, -, -, -, -, -, -, -, e0, e1, -, -, -, -⟩ := idx_facts t
  funext j
  show V m c main_arg1 (((cfg0.win 1).blk t).view.emb j) = V m c main_arg1 j
  refine congrArg _ (funext fun a => Fin.ext ?_)
  match a with
  | ⟨0, _⟩ => show win0_1.index t (0 : Fin 2) * 4 + 1 * (j 0).val = (j 0).val; omega
  | ⟨1, _⟩ => show win0_1.index t (1 : Fin 2) * 64 + 1 * (j 1).val = (j 1).val; omega

theorem iblk_bd (c : Dev nD) (t : Fin cfg0.N) : (iblk m c 2 t : FVec Ideal S4 .f32) = V m c main_arg2 := by
  obtain ⟨-, -, -, -, -, -, -, -, -, -, e0, -, -, -⟩ := idx_facts t
  funext j
  show V m c main_arg2 (((cfg0.win 2).blk t).view.emb j) = V m c main_arg2 j
  refine congrArg _ (funext fun a => Fin.ext ?_)
  match a with
  | ⟨0, _⟩ => show win0_2.index t (0 : Fin 1) * 4 + 1 * (j 0).val = (j 0).val; omega

theorem iblk_wu (c : Dev nD) (t : Fin cfg0.N) : (iblk m c 3 t : FVec Ideal S64x4 .f32) = V m c main_arg3 := by
  obtain ⟨-, -, -, -, -, -, -, -, -, -, -, e0, e1, -⟩ := idx_facts t
  funext j
  show V m c main_arg3 (((cfg0.win 3).blk t).view.emb j) = V m c main_arg3 j
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 4 + 1 * (j 1).val = (j 1).val; omega

theorem iblk_bu (c : Dev nD) (t : Fin cfg0.N) : (iblk m c 4 t : FVec Ideal S64 .f32) = V m c main_arg4 := by
  obtain ⟨-, -, -, -, -, -, -, -, -, -, -, -, -, e0⟩ := idx_facts t
  funext j
  show V m c main_arg4 (((cfg0.win 4).blk t).view.emb j) = V m c main_arg4 j
  refine congrArg _ (funext fun a => Fin.ext ?_)
  match a with
  | ⟨0, _⟩ => show win0_4.index t (0 : Fin 1) * 64 + 1 * (j 0).val = (j 0).val; omega

/-- The feature map's block at point `t` is batch `t` of the array. -/
theorem iblk_slab (c : Dev nD) (t : Fin cfg0.N) (ht : t.val < 32) (ch : Fin 64) (h w : Fin 256) :
    (iblk m c 0 t : FVec Ideal S1x64x256x256 .f32) (ix4 (0 : Fin 1) ch h w)
      = (V m c main_arg0 : Arr.Idx → EReal) (ix4 (⟨t.val, ht⟩ : Fin 32) ch h w) := by
  obtain ⟨e0, e1, e2, e3, -, -, -, -, -, -, -, -, -, -⟩ := idx_facts t
  show V m c main_arg0 (((cfg0.win 0).blk t).view.emb (ix4 (0 : Fin 1) ch h w)) = V m c main_arg0 _
  refine congrArg _ (funext fun a => Fin.ext ?_)
  match a with
  | ⟨0, _⟩ => show win0_0.index t (0 : Fin 4) * 1 + 1 * 0 = t.val; omega
  | ⟨1, _⟩ => show win0_0.index t (1 : Fin 4) * 64 + 1 * ch.val = ch.val; omega
  | ⟨2, _⟩ => show win0_0.index t (2 : Fin 4) * 256 + 1 * h.val = h.val; omega
  | ⟨3, _⟩ => show win0_0.index t (3 : Fin 4) * 256 + 1 * w.val = w.val; omega

/-! ## The result array -/

/-- What the result array ends holding: the rescaled feature map, of the arguments as launched. -/
abbrev result (c : Dev nD) : Buf (Elt Ideal) ((c : Thread nD τ).loc main_v0) :=
  rescaled (m ((c : Thread nD τ).loc main_arg0)) (m ((c : Thread nD τ).loc main_arg1))
    (m ((c : Thread nD τ).loc main_arg2)) (m ((c : Thread nD τ).loc main_arg3)) (m ((c : Thread nD τ).loc main_arg4))

/-- WHAT POINT `t` WRITES BACK is block `t` of the rescaled array. -/
theorem flushed_eq (c : Dev nD) (t : Fin cfg0.N) :
    (dats m 0 c).flushed 5 t = ((cfg0.win 5).blk t).view.read (Elt Ideal) (result m c) := by
  have ht : t.val < 32 := Nat.lt_of_lt_of_eq t.isLt N_0
  rw [flushed5]
  unfold out0_5
  rw [View.canon_unit_zero hz4]
  simp only [View.ld_unit_zero (S := S1x64x256x256) hz4, View.ld_unit_zero (S := S4x64) hz2,
    View.ld_unit_zero (S := S4) hz1, View.ld_unit_zero (S := S64x4) hz2, View.ld_unit_zero (S := S64) hz1]
  obtain ⟨-, -, -, -, e0, e1, e2, e3, -, -, -, -, -, -⟩ := idx_facts t
  funext y
  show k0_pay1 (F := Ideal) (iblk m c 0 t) (iblk m c 1 t) (iblk m c 2 t) (iblk m c 3 t) (iblk m c 4 t) y
    = result m c (((cfg0.win 5).blk t).view.emb y)
  refine pay_eq_rescaled _ _ _ _ _ (⟨t.val, ht⟩ : Fin 32) _ _ _ _ _ (iblk_slab m c t ht)
    (iblk_wd m c t) (iblk_bd m c t) (iblk_wu m c t) (iblk_bu m c t) y _ ?_ ?_ ?_ ?_
  · show win0_5.index t (0 : Fin 4) * 1 + 1 * (y 0).val = t.val
    have : (y 0).val < 1 := (y 0).isLt
    omega
  · show win0_5.index t (1 : Fin 4) * 64 + 1 * (y 1).val = (y 1).val; omega
  · show win0_5.index t (2 : Fin 4) * 256 + 1 * (y 2).val = (y 2).val; omega
  · show win0_5.index t (3 : Fin 4) * 256 + 1 * (y 3).val = (y 3).val; omega

/-- An index of the array is in point `t`'s block iff each coordinate is in the block's range on its axis. -/
theorem mem_blk (t : Fin cfg0.N) (i : S32x64x256x256.Idx) :
    i ∈ ((cfg0.win 5).blk t).view.set ↔ ∀ a : Fin 4, win0_5.index t a * S1x64x256x256.size a ≤ (i a).val
      ∧ (i a).val < win0_5.index t a * S1x64x256x256.size a + S1x64x256x256.size a := by
  show i ∈ ((View.whole main_v0).slice (win0_5.rect t)).set ↔ _
  rw [View.set_slice_whole, Rect.mem_set_unit]
  exact Iff.rfl

/-- Every entry of the array lies in the block of the point its first coordinate names. -/
theorem covered (i : S32x64x256x256.Idx) :
    ∃ t : Fin cfg0.N, (cfg0.win 5).flush t = true ∧ i ∈ ((cfg0.win 5).blk t).view.set := by
  have hN : cfg0.N = 32 := N_0
  have hi0 : (i 0).val < 32 := (i 0).isLt
  have hi1 : (i 1).val < 64 := (i 1).isLt
  have hi2 : (i 2).val < 256 := (i 2).isLt
  have hi3 : (i 3).val < 256 := (i 3).isLt
  obtain ⟨t, ht⟩ : ∃ t : Fin cfg0.N, t.val = (i 0).val := ⟨⟨(i 0).val, Nat.lt_of_lt_of_eq hi0 hN.symm⟩, rfl⟩
  refine ⟨t, flush0_5 t, ?_⟩
  obtain ⟨-, -, -, -, e0, e1, e2, e3, -, -, -, -, -, -⟩ := idx_facts t
  rw [mem_blk]
  intro a
  match a with
  | ⟨0, _⟩ =>
    show win0_5.index t (0 : Fin 4) * 1 ≤ (i 0).val ∧ (i 0).val < win0_5.index t (0 : Fin 4) * 1 + 1
    omega
  | ⟨1, _⟩ =>
    show win0_5.index t (1 : Fin 4) * 64 ≤ (i 1).val ∧ (i 1).val < win0_5.index t (1 : Fin 4) * 64 + 64
    omega
  | ⟨2, _⟩ =>
    show win0_5.index t (2 : Fin 4) * 256 ≤ (i 2).val ∧ (i 2).val < win0_5.index t (2 : Fin 4) * 256 + 256
    omega
  | ⟨3, _⟩ =>
    show win0_5.index t (3 : Fin 4) * 256 ≤ (i 3).val ∧ (i 3).val < win0_5.index t (3 : Fin 4) * 256 + 256
    omega

/-- THE ARRAY after the run is the rescaled feature map. -/
theorem final (c : Dev nD) : (dats m 0 c).arrAt 5 cfg0.N = result m c :=
  (dats m 0 c).arrAt_eq_of_cover 5 (result m c) (fun t _ => flushed_eq m c t) covered

/-- The kernel's run, read: the result array at the rescaled feature map of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefBody.lean ====
/-
  The reference, read index by index, is `Excite.rescaled` of its arguments.

  Its first stage sums the whole array over its last two axes: at `(b, q)` that is the plane sum of plane `(b, q)`
  (`Excite.reduce_arr`).  Every later stage reads one entry of each operand, or sums a row against a row of a weight
  matrix; the host's quotient `1 / (1 + exp (-z))` is the logistic function as the extended reals define it.
-/
import proofs.«169785_j49701361549823_2_alg».proof.Proof.Gen.ReferenceIdeal.Read
import proofs.«169785_j49701361549823_2_alg».proof.Proof.Excite

noncomputable section

namespace Cert.ReferenceIdeal.RefValue

open Cert.ReferenceIdeal Cert.ReferenceIdeal.Gen Cert.ReferenceIdeal.Read Cert.Excite
open Idealize.ShloMosaic Idealize.ShloMosaic.ValueIdx

variable (x0 : Arr.Idx → EReal) (x1 : Wd.Idx → EReal) (x2 : Bd.Idx → EReal) (x3 : Wu.Idx → EReal) (x4 : Bu.Idx → EReal)

/-- The mean over a plane: the plane sum divided by 65536. -/
theorem pooled_apply (b : Fin 32) (q : Fin 64) :
    val_main_v2 (F := Ideal) x0 (ix2 b q) = Ideal.div (planeSum x0 b q) (Ideal.ofBits .f32 0x47800000#32) := by
  rw [val_main_v2_apply, val_main_v1_apply, val_main_cst_0_apply]
  unfold val_main_v0
  show Ideal.div (Ideal.hostReduceAdd _ x0 (Ideal.ofBits .f32 0x00000000#32) (ix2 b q)) _ = _
  rw [reduce_arr]
  rfl

/-- The hidden layer: row `b` of the means against row `k` of `w_down`, plus `b_down[k]`, clamped at zero. -/
theorem hidden_apply (b : Fin 32) (k : Fin 4) :
    val_main_v7 (F := Ideal) x0 x1 x2 (ix2 b k)
      = max ((∑ q : Fin 64, Ideal.div (planeSum x0 b q) (Ideal.ofBits .f32 0x47800000#32) * x1 (ix2 k q)) + x2 (ix1 k))
          (Ideal.ofBits .f32 0x00000000#32) := by
  have el : ∀ q : Fin 64, lidx_main_v3 (ix2 b k) q = ix2 b q := fun q => funext fun a => Fin.ext (by
    match a with | ⟨0, _⟩ => rfl | ⟨1, _⟩ => rfl)
  have er : ∀ q : Fin 64, ridx_main_v3 (ix2 b k) q = ix2 k q := fun q => funext fun a => Fin.ext (by
    match a with | ⟨0, _⟩ => rfl | ⟨1, _⟩ => rfl)
  have eb : idx_main_v4 (idx_main_v5 (ix2 b k)) = ix1 k := funext fun a => Fin.ext (by
    match a with | ⟨0, _⟩ => rfl)
  rw [val_main_v7_apply, val_main_v6_apply, val_main_v3_apply, val_main_v5_apply, val_main_v4_apply,
    val_main_call0_v0_apply, val_main_call0_cst_apply, eb]
  simp only [el, er, pooled_apply, Ideal.addf_def, Ideal.maximumf_def, Ideal.ofBits_def]

/-- The scale: row `b` of the hidden layer against row `c` of `w_up`, plus `b_up[c]`, through `1 / (1 + exp (-z))`. -/
theorem chanScale_apply (b : Fin 32) (c : Fin 64) :
    val_main_v17 (F := Ideal) x0 x1 x2 x3 x4 (ix2 b c) = chanScale (fun q => planeSum x0 b q) x1 x2 x3 x4 c := by
  have el : ∀ k : Fin 4, lidx_main_v8 (ix2 b c) k = ix2 b k := fun k => funext fun a => Fin.ext (by
    match a with | ⟨0, _⟩ => rfl | ⟨1, _⟩ => rfl)
  have er : ∀ k : Fin 4, ridx_main_v8 (ix2 b c) k = ix2 c k := fun k => funext fun a => Fin.ext (by
    match a with | ⟨0, _⟩ => rfl | ⟨1, _⟩ => rfl)
  have eb : idx_main_v9 (idx_main_v10 (ix2 b c)) = ix1 c := funext fun a => Fin.ext (by
    match a with | ⟨0, _⟩ => rfl)
  have one : Ideal.ofBits .f32 0x3F800000#32 = 1 := IdealRules.sign_bit.ideal_onePat .f32
  rw [val_main_v17_apply, val_main_v16_apply, val_main_cst_2_apply, val_main_v15_apply, val_main_v14_apply,
    val_main_cst_1_apply, val_main_v13_apply, val_main_v12_apply, val_main_v11_apply, val_main_v8_apply,
    val_main_v10_apply, val_main_v9_apply, eb]
  simp only [el, er, hidden_apply, Ideal.addf_def, Ideal.hostDivf_def, Ideal.hostUnary_exp_def, Ideal.hostNegf_def,
    Ideal.negf_def, Ideal.ofBits_def, one]
  rfl

/-- The reference's result is the rescaled array. -/
theorem result_eq : val_main_v20 (F := Ideal) x0 x1 x2 x3 x4 = rescaled x0 x1 x2 x3 x4 := by
  funext i
  obtain ⟨b, c, h, w, rfl⟩ : ∃ (b : Fin 32) (c : Fin 64) (h w : Fin 256), i = ix4 b c h w :=
    ⟨i 0, i 1, i 2, i 3, eq_ix4 i⟩
  have e : idx_main_v18 (idx_main_v19 (ix4 b c h w)) = ix2 b c := funext fun a => Fin.ext (by
    match a with | ⟨0, _⟩ => rfl | ⟨1, _⟩ => rfl)
  rw [val_main_v20_apply, val_main_v19_apply, val_main_v18_apply, e, chanScale_apply]
  rfl

end Cert.ReferenceIdeal.RefValue

end
-- ==== Proof.lean ====
/-
  A squeeze-and-excite rescale of a feature map `x` of shape [32, 64, 256, 256]: per batch, the 64 plane means go
  through a 64 → 4 affine map clamped at zero and a 4 → 64 affine map into the logistic function, and every entry is
  multiplied by the scale of its channel.

  The kernel does this one batch per grid point, on the batch's slab held whole; the reference does it on the whole
  array with two host matrix products and the logistic function spelt `1 / (1 + exp (-z))`.  At the extended reals
  both are `Excite.rescaled` of the arguments (Proof/Excite.lean): the kernel by reading its body at an index
  (Proof/KernelBody.lean) and assembling the 32 written blocks (Proof/KernelArray.lean), the reference by reading its
  stages at an index (Proof/RefBody.lean).  The only step that is not a term-by-term reading is the plane sum, where a
  sum over a slab's plane is re-indexed as the sum over the same plane of the array.  No step uses finiteness of the
  inputs.

  The three frames are the generated ones (the reference's is its generated run with the result dropped), and the
  kernel's idealization rewrote nothing, so that conjunct is `True`.
-/
import proofs.«169785_j49701361549823_2_alg».proof.Defs
import proofs.«169785_j49701361549823_2_alg».proof.Proof.Gen.Kernel
import proofs.«169785_j49701361549823_2_alg».proof.Proof.Gen.Kernel.Skeleton
import proofs.«169785_j49701361549823_2_alg».proof.Proof.Gen.Kernel.Launch
import proofs.«169785_j49701361549823_2_alg».proof.Proof.Gen.Kernel.Points
import proofs.«169785_j49701361549823_2_alg».proof.Proof.Gen.Kernel.Frame
import proofs.«169785_j49701361549823_2_alg».proof.Proof.Gen.KernelIdeal
import proofs.«169785_j49701361549823_2_alg».proof.Proof.Gen.KernelIdeal.Skeleton
import proofs.«169785_j49701361549823_2_alg».proof.Proof.Gen.KernelIdeal.Launch
import proofs.«169785_j49701361549823_2_alg».proof.Proof.Gen.KernelIdeal.Points
import proofs.«169785_j49701361549823_2_alg».proof.Proof.Gen.KernelIdeal.Frame
import proofs.«169785_j49701361549823_2_alg».proof.Proof.Gen.ReferenceIdeal
import proofs.«169785_j49701361549823_2_alg».proof.Proof.Gen.Pre_finite_inputs
import proofs.«169785_j49701361549823_2_alg».proof.Proof.Gen.KernelIdeal.Value
import proofs.«169785_j49701361549823_2_alg».proof.Proof.Gen.ReferenceIdeal.Run
import proofs.«169785_j49701361549823_2_alg».proof.Proof.Gen.ReferenceIdeal.Read
import proofs.«169785_j49701361549823_2_alg».proof.Proof.KernelArray
import proofs.«169785_j49701361549823_2_alg».proof.Proof.RefBody
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the rescaled feature map of arguments that agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
